-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x4096x64 : Shape := ⟨4, ![8, 8, 4096, 64]⟩
abbrev S_ : Shape := ⟨0, ![]⟩

class Facts : Prop where
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel

variable [Facts]

def fn {F : FTy → Type} [FloatOps F] (main_arg0 : FVec F S8x8x4096x64 .f32) (main_arg1 : FVec F S8x8x4096x64 .f32) (main_arg2 : FVec F S8x8x4096x64 .f32) : IVec S_ 1 :=
  let main_v0 : FVec F S8x8x4096x64 .f32 := Host.absf main_arg0
  let main_cst : FVec F S_ .f32 := constant S_ .f32 0x7F800000#32
  let main_v1 : FVec F S8x8x4096x64 .f32 := broadcastInDim S8x8x4096x64 ![] bcast_S_S8x8x4096x64 main_cst
  let main_v2 : IVec S8x8x4096x64 1 := cmpf .olt main_v0 main_v1
  let main_c : IVec S_ 1 := constantI S_ 1 1#1
  let main_v3 : IVec S_ 1 := (fun x v => Host.reduce IntOp.andi x v reducesTo_S8x8x4096x64_S_d0_1_2_3 h_S_) main_v2 main_c
  let main_v4 : FVec F S8x8x4096x64 .f32 := Host.absf main_arg1
  let main_cst_0 : FVec F S_ .f32 := constant S_ .f32 0x7F800000#32
  let main_v5 : FVec F S8x8x4096x64 .f32 := broadcastInDim S8x8x4096x64 ![] bcast_S_S8x8x4096x64 main_cst_0
  let main_v6 : IVec S8x8x4096x64 1 := cmpf .olt main_v4 main_v5
  let main_c_1 : IVec S_ 1 := constantI S_ 1 1#1
  let main_v7 : IVec S_ 1 := (fun x v => Host.reduce IntOp.andi x v reducesTo_S8x8x4096x64_S_d0_1_2_3 h_S_) main_v6 main_c_1
  let main_v8 : IVec S_ 1 := andi main_v3 main_v7
  let main_v9 : FVec F S8x8x4096x64 .f32 := Host.absf main_arg2
  let main_cst_2 : FVec F S_ .f32 := constant S_ .f32 0x7F800000#32
  let main_v10 : FVec F S8x8x4096x64 .f32 := broadcastInDim S8x8x4096x64 ![] bcast_S_S8x8x4096x64 main_cst_2
  let main_v11 : IVec S8x8x4096x64 1 := cmpf .olt main_v9 main_v10
  let main_c_3 : IVec S_ 1 := constantI S_ 1 1#1
  let main_v12 : IVec S_ 1 := (fun x v => Host.reduce IntOp.andi x v reducesTo_S8x8x4096x64_S_d0_1_2_3 h_S_) main_v11 main_c_3
  let main_v13 : IVec S_ 1 := andi main_v8 main_v12
  main_v13
-- ==== Kernel.lean ====
abbrev S8x8x4096x64 : Shape := ⟨4, ![8, 8, 4096, 64]⟩
abbrev S64x4096x64 : Shape := ⟨3, ![64, 4096, 64]⟩
abbrev S1x4096x64 : Shape := ⟨3, ![1, 4096, 64]⟩
abbrev S4096x64 : Shape := ⟨2, ![4096, 64]⟩
abbrev S32x128x64 : Shape := ⟨3, ![32, 128, 64]⟩
abbrev S1x128x64 : Shape := ⟨3, ![1, 128, 64]⟩
abbrev S31x128x64 : Shape := ⟨3, ![31, 128, 64]⟩
abbrev S32x256x64 : Shape := ⟨3, ![32, 256, 64]⟩
abbrev S32x128x256 : Shape := ⟨3, ![32, 128, 256]⟩
abbrev S32x128 : Shape := ⟨2, ![32, 128]⟩
abbrev S32x128x1 : Shape := ⟨3, ![32, 128, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S64x4096x64, .f32⟩
  | .hbm, ⟨4, _⟩ => ⟨S64x4096x64, .f32⟩
  | .hbm, ⟨5, _⟩ => ⟨S64x4096x64, .f32⟩
  | .hbm, ⟨6, _⟩ => ⟨S64x4096x64, .f32⟩
  | .hbm, ⟨7, _⟩ => ⟨S8x8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | _, _ => ⟨S8x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x8x4096x64_S64x4096x64 : S8x8x4096x64.ShapeCasts S64x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S32x128x64 : S4096x64.ShapeCasts S32x128x64
  bitsLt_bf16_f32 : FTy.bits .bf16 < FTy.bits .f32
  slices_S32x128x64_o0_0_0_S31x128x64 : S32x128x64.Slices ![0, 0, 0] S31x128x64
  concatenates_S1x128x64_S31x128x64_S32x128x64_d0 : Shape.Concatenates [S1x128x64, S31x128x64] S32x128x64 0
  concatenates_S32x128x64_S32x128x64_S32x256x64_d1 : Shape.Concatenates [S32x128x64, S32x128x64] S32x256x64 1
  reduces_S32x128x256_S32x128 : S32x128x256.Reduces [2] S32x128
  shapeCasts_S32x128_S32x128x1 : S32x128.ShapeCasts S32x128x1
  broadcasts_S32x128x1_S32x128x256 : S32x128x1.Broadcasts S32x128x256
  shapeCasts_S32x128x64_S4096x64 : S32x128x64.ShapeCasts S4096x64
  shapeCasts_S4096x64_S1x4096x64 : S4096x64.ShapeCasts S1x4096x64
  shapeCasts_S64x4096x64_S8x8x4096x64 : S64x4096x64.ShapeCasts S8x8x4096x64
  dot_S32x128x64_S32x256x64_S32x128x256_2_2_1_1_0_0_wf : DotDims.WF S32x128x64 S32x256x64 S32x128x256 [2] [2] [1] [1] [0] [0]
  dot_S32x128x256_S32x256x64_S32x128x64_2_1_1_2_0_0_wf : DotDims.WF S32x128x256 S32x256x64 S32x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S64x4096x64.size a
  hwx0_0 : ∀ i : grid0.Coords, EltTy.bits .f32 = 32 ∨ (Rect.block (s := S64x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S64x4096x64.size a
  hwx0_1 : ∀ i : grid0.Coords, EltTy.bits .f32 = 32 ∨ (Rect.block (s := S64x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S64x4096x64.size a
  hwx0_2 : ∀ i : grid0.Coords, EltTy.bits .f32 = 32 ∨ (Rect.block (s := S64x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S64x4096x64.size a
  hwx0_3 : ∀ i : grid0.Coords, EltTy.bits .f32 = 32 ∨ (Rect.block (s := S64x4096x64) S1x4096x64.size (cc0_transform_3 i) (hinb0_3 i)).WholeWords (EltTy.packing .f32)

variable [Facts₀]

def dot_S32x128x64_S32x256x64_S32x128x256_2_2_1_1_0_0 : DotDims S32x128x64 S32x256x64 S32x128x256 where
  lhsContracting := [2]
  rhsContracting := [2]
  lhsNonContracting := [1]
  rhsNonContracting := [1]
  lhsBatch := [0]
  rhsBatch := [0]
  wf := dot_S32x128x64_S32x256x64_S32x128x256_2_2_1_1_0_0_wf
def dot_S32x128x256_S32x256x64_S32x128x64_2_1_1_2_0_0 : DotDims S32x128x256 S32x256x64 S32x128x64 where
  lhsContracting := [2]
  rhsContracting := [1]
  lhsNonContracting := [1]
  rhsNonContracting := [2]
  lhsBatch := [0]
  rhsBatch := [0]
  wf := dot_S32x128x256_S32x256x64_S32x128x64_2_1_1_2_0_0_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x4096x64 : Shape := ⟨4, ![8, 8, 4096, 64]⟩
abbrev S64x32x128x64 : Shape := ⟨4, ![64, 32, 128, 64]⟩
abbrev S_ : Shape := ⟨0, ![]⟩
abbrev S64x33x128x64 : Shape := ⟨4, ![64, 33, 128, 64]⟩
abbrev S64x32x256x64 : Shape := ⟨4, ![64, 32, 256, 64]⟩
abbrev S64x32x128x256 : Shape := ⟨4, ![64, 32, 128, 256]⟩
abbrev S64x32x128 : Shape := ⟨3, ![64, 32, 128]⟩
abbrev S64x32x128x1 : Shape := ⟨4, ![64, 32, 128, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S64x32x128x64, .f32⟩
  | .hbm, ⟨4, _⟩ => ⟨S_, .f32⟩
  | .hbm, ⟨5, _⟩ => ⟨S64x32x128x64, .f32⟩
  | .hbm, ⟨6, _⟩ => ⟨S64x32x128x64, .f32⟩
  | .hbm, ⟨7, _⟩ => ⟨S64x32x128x64, .f32⟩
  | .hbm, ⟨8, _⟩ => ⟨S_, .f32⟩
  | .hbm, ⟨9, _⟩ => ⟨S_, .f32⟩
  | .hbm, ⟨10, _⟩ => ⟨S64x33x128x64, .f32⟩
  | .hbm, ⟨11, _⟩ => ⟨S64x32x128x64, .f32⟩
  | .hbm, ⟨12, _⟩ => ⟨S64x32x128x64, .f32⟩
  | .hbm, ⟨13, _⟩ => ⟨S64x32x256x64, .f32⟩
  | .hbm, ⟨14, _⟩ => ⟨S64x32x128x64, .f32⟩
  | .hbm, ⟨15, _⟩ => ⟨S_, .f32⟩
  | .hbm, ⟨16, _⟩ => ⟨S_, .f32⟩
  | .hbm, ⟨17, _⟩ => ⟨S64x33x128x64, .f32⟩
  | .hbm, ⟨18, _⟩ => ⟨S64x32x128x64, .f32⟩
  | .hbm, ⟨19, _⟩ => ⟨S64x32x128x64, .f32⟩
  | .hbm, ⟨20, _⟩ => ⟨S64x32x256x64, .f32⟩
  | .hbm, ⟨21, _⟩ => ⟨S64x32x128x256, .f32⟩
  | .hbm, ⟨22, _⟩ => ⟨S_, .f32⟩
  | .hbm, ⟨23, _⟩ => ⟨S64x32x128, .f32⟩
  | .hbm, ⟨24, _⟩ => ⟨S_, .f32⟩
  | .hbm, ⟨25, _⟩ => ⟨S64x32x128, .f32⟩
  | .hbm, ⟨26, _⟩ => ⟨S64x32x128, .f32⟩
  | .hbm, ⟨27, _⟩ => ⟨S64x32x128x1, .f32⟩
  | .hbm, ⟨28, _⟩ => ⟨S64x32x128x256, .f32⟩
  | .hbm, ⟨29, _⟩ => ⟨S64x32x128x256, .f32⟩
  | .hbm, ⟨30, _⟩ => ⟨S64x32x128x256, .f32⟩
  | .hbm, ⟨31, _⟩ => ⟨S_, .f32⟩
  | .hbm, ⟨32, _⟩ => ⟨S64x32x128, .f32⟩
  | .hbm, ⟨33, _⟩ => ⟨S64x32x128x1, .f32⟩
  | .hbm, ⟨34, _⟩ => ⟨S64x32x128x256, .f32⟩
  | .hbm, ⟨35, _⟩ => ⟨S64x32x128x256, .f32⟩
  | .hbm, ⟨36, _⟩ => ⟨S64x32x128x64, .f32⟩
  | .hbm, ⟨37, _⟩ => ⟨S8x8x4096x64, .f32⟩
  | _, _ => ⟨S8x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  shapeCasts_S8x8x4096x64_S64x32x128x64 : S8x8x4096x64.ShapeCasts S64x32x128x64
  bcast_S_S64x32x128x64 : S_.BroadcastsInDim S64x32x128x64 (![] : Fin 0 → Fin S64x32x128x64.rank)
  pads_S64x32x128x64_S64x33x128x64_000_100_000_000 : S64x32x128x64.Pads (![0, 1, 0, 0] : Fin 4 → Nat) ![0, 0, 0, 0] ![0, 0, 0, 0] S64x33x128x64
  h_S_ : 0 < S_.numel
  slices_S64x33x128x64_S64x32x128x64_0_0_0_0 : S64x33x128x64.Slices ![0, 0, 0, 0] S64x32x128x64
  slices_S64x33x128x64_S64x32x128x64_0_1_0_0 : S64x33x128x64.Slices ![0, 1, 0, 0] S64x32x128x64
  concatenates_S64x32x128x64_S64x32x128x64_S64x32x256x64_d2 : Shape.Concatenates [S64x32x128x64, S64x32x128x64] S64x32x256x64 2
  reducesTo_S64x32x128x256_S64x32x128_d3 : S64x32x128x256.ReducesTo [3] S64x32x128
  bcast_S_S64x32x128 : S_.BroadcastsInDim S64x32x128 (![] : Fin 0 → Fin S64x32x128.rank)
  bcast_S64x32x128_S64x32x128x1_0_1_2 : S64x32x128.BroadcastsInDim S64x32x128x1 (![0, 1, 2] : Fin 3 → Fin S64x32x128x1.rank)
  bcast_S64x32x128x1_S64x32x128x256_0_1_2_3 : S64x32x128x1.BroadcastsInDim S64x32x128x256 (![0, 1, 2, 3] : Fin 4 → Fin S64x32x128x256.rank)
  shapeCasts_S64x32x128x64_S8x8x4096x64 : S64x32x128x64.ShapeCasts S8x8x4096x64
  dot_S64x32x128x64_S64x32x256x64_S64x32x128x256_3_3_2_2_01_01_wf : DotDims.WF S64x32x128x64 S64x32x256x64 S64x32x128x256 [3] [3] [2] [2] [0, 1] [0, 1]
  dot_S64x32x128x256_S64x32x256x64_S64x32x128x64_3_2_2_3_01_01_wf : DotDims.WF S64x32x128x256 S64x32x256x64 S64x32x128x64 [3] [2] [2] [3] [0, 1] [0, 1]

variable [Facts₀]

def dot_S64x32x128x64_S64x32x256x64_S64x32x128x256_3_3_2_2_01_01 : DotDims S64x32x128x64 S64x32x256x64 S64x32x128x256 where
  lhsContracting := [3]
  rhsContracting := [3]
  lhsNonContracting := [2]
  rhsNonContracting := [2]
  lhsBatch := [0, 1]
  rhsBatch := [0, 1]
  wf := dot_S64x32x128x64_S64x32x256x64_S64x32x128x256_3_3_2_2_01_01_wf
def dot_S64x32x128x256_S64x32x256x64_S64x32x128x64_3_2_2_3_01_01 : DotDims S64x32x128x256 S64x32x256x64 S64x32x128x64 where
  lhsContracting := [3]
  rhsContracting := [2]
  lhsNonContracting := [2]
  rhsNonContracting := [3]
  lhsBatch := [0, 1]
  rhsBatch := [0, 1]
  wf := dot_S64x32x128x256_S64x32x256x64_S64x32x128x64_3_2_2_3_01_01_wf

class Facts : Prop extends Facts₀ where

variable [Facts]
-- ==== Proof.AttnSpec.lean ====
/-
  Windowed local attention with one window of look-back, as a function on one slab.

  A slab is the 4096 tokens × 64 features of one (batch, head) pair. The tokens are cut into 32 windows of 128.
  Window `w` attends to 256 key/value columns: columns 0–127 are the tokens of window `w − 1` (for `w = 0`
  a constant padding row of −1 in every feature), columns 128–255 the tokens of window `w` itself. For query token `i`
  of window `w`:
    score j   = ∑ₑ (q[w·128+i, e] · ⅛) · K[w, j, e]
    rowMax    = max(−∞, max over j of score j)        (the maximum is taken from −∞, and once more against −∞)
    expo j    = exp (score j − rowMax)
    denom     = ∑ⱼ expo j
    weight j  = expo j / denom
    attend e  = ∑ⱼ weight j · V[w, j, e]
  over the extended reals, every operation the exact one. The array-level function `result` applies this to slab
  `b·8 + h` of the [8, 8, 4096, 64] arguments, at window `n / 128` and token `n % 128`.
-/
import Idealize.ShloMosaic.PureOps.Ideal
import Idealize.ShloMosaic.PureOps.Ideal.Laws
import Idealize.ShloMosaic.Lib.ValueIdx

noncomputable section

namespace Cert.LocalAttn

open Idealize.ShloMosaic Idealize.ShloMosaic.ValueIdx

/-- One (batch, head) pair's tokens × features. -/
abbrev Slab : Type := Fin 4096 → Fin 64 → EReal

/-- Token `i` of window `w`. -/
def tok (w : Fin 32) (i : Fin 128) : Fin 4096 := ⟨w.val * 128 + i.val, by have := w.isLt; have := i.isLt; omega⟩

theorem tok_val (w : Fin 32) (i : Fin 128) : (tok w i).val = w.val * 128 + i.val := rfl

/-- The query scale ⅛ = 64^(−½), as the binary32 word both programs carry. -/
def scale : EReal := Ideal.ofBits .f32 0x3E000000#32
/-- The padding value −1 of the window before the first. -/
def padv : EReal := Ideal.ofBits .f32 0xBF800000#32
/-- −∞, where the row maximum starts. -/
def ninf : EReal := Ideal.ofBits .f32 0xFF800000#32

/-- The bfloat16 word of −1 denotes the same number as the binary32 word of −1. -/
theorem padv_bf16 : Ideal.ofBits .bf16 0xBF80#16 = padv := by
  have h32 : Ideal.ofBits .f32 0xBF800000#32 = ((-1 : ℝ) : EReal) := by
    simp [Ideal.ofBits, Ideal.ieee]
    rw [← EReal.coe_mul]
    norm_num
  have h16 : Ideal.ofBits .bf16 0xBF80#16 = ((-1 : ℝ) : EReal) := by
    simp [Ideal.ofBits, Ideal.ieee]
    rw [← EReal.coe_mul]
    norm_num
  exact h16.trans h32.symm

/-- Column `j` of window `w`'s look-around keys (or values): the previous window's tokens, then the window's own. -/
def look (x : Slab) (w : Fin 32) (j : Fin 256) (e : Fin 64) : EReal :=
  if hj : j.val < 128 then
    if hw : w.val = 0 then padv
    else x (tok ⟨w.val - 1, by have := w.isLt; omega⟩ ⟨j.val, hj⟩) e
  else x (tok w ⟨j.val - 128, by have := j.isLt; omega⟩) e

def score (q k : Slab) (w : Fin 32) (i : Fin 128) (j : Fin 256) : EReal :=
  ∑ e : Fin 64, (q (tok w i) e * scale) * look k w j e

def rowMax (q k : Slab) (w : Fin 32) (i : Fin 128) : EReal :=
  max ninf ((Finset.univ : Finset (Fin 256)).fold max ninf (fun j => score q k w i j))

def expo (q k : Slab) (w : Fin 32) (i : Fin 128) (j : Fin 256) : EReal :=
  Ideal.exp (score q k w i j - rowMax q k w i)

def denom (q k : Slab) (w : Fin 32) (i : Fin 128) : EReal := ∑ j : Fin 256, expo q k w i j

def weight (q k : Slab) (w : Fin 32) (i : Fin 128) (j : Fin 256) : EReal :=
  Ideal.div (expo q k w i j) (denom q k w i)

def attend (q k v : Slab) (w : Fin 32) (i : Fin 128) (e : Fin 64) : EReal :=
  ∑ j : Fin 256, weight q k w i j * look v w j e

/-! ## On the arrays -/

/-- The shape of the three arguments and of the result. -/
abbrev A4 : Shape := ⟨4, ![8, 8, 4096, 64]⟩
/-- The same arrays with batch and head merged. -/
abbrev A3 : Shape := ⟨3, ![64, 4096, 64]⟩

/-- Slab `B = b·8 + h` of an argument array. -/
def slab (x : A4.Idx → EReal) (B : Fin 64) : Slab := fun n e =>
  x (ix4 (⟨B.val / 8, by have := B.isLt; omega⟩ : Fin 8) (⟨B.val % 8, by omega⟩ : Fin 8) n e)

/-- The attention output with batch and head merged: entry (B, n, e). -/
def result3 (q k v : A4.Idx → EReal) : A3.Idx → EReal := fun i =>
  attend (slab q (i 0)) (slab k (i 0)) (slab v (i 0))
    ⟨(i 1).val / 128, by have h : (i 1).val < 4096 := (i 1).isLt; omega⟩
    ⟨(i 1).val % 128, by omega⟩ (i 2)

/-- The attention output: entry (b, h, n, e). -/
def result (q k v : A4.Idx → EReal) : A4.Idx → EReal := fun i =>
  attend
    (slab q ⟨(i 0).val * 8 + (i 1).val, by have h0 : (i 0).val < 8 := (i 0).isLt; have h1 : (i 1).val < 8 := (i 1).isLt; omega⟩)
    (slab k ⟨(i 0).val * 8 + (i 1).val, by have h0 : (i 0).val < 8 := (i 0).isLt; have h1 : (i 1).val < 8 := (i 1).isLt; omega⟩)
    (slab v ⟨(i 0).val * 8 + (i 1).val, by have h0 : (i 0).val < 8 := (i 0).isLt; have h1 : (i 1).val < 8 := (i 1).isLt; omega⟩)
    ⟨(i 2).val / 128, by have h : (i 2).val < 4096 := (i 2).isLt; omega⟩
    ⟨(i 2).val % 128, by omega⟩ (i 3)

end Cert.LocalAttn

end
-- ==== Proof.KernelLayout.lean ====
/-
  The kernel body's layout operations, read entry by entry: a [1, 4096, 64] block as 32 windows of 128 tokens and back,
  the look-around columns of the keys and values (before each window its predecessor, before the first a row of −1),
  and a per-row value repeated along the 256 columns.
-/
import proofs.«156112_j31894427140634_1_alg».proof.Proof.Gen.KernelIdeal
import proofs.«156112_j31894427140634_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.LocalAttn

/-! ## The layout stages -/

/-- A [1, 4096, 64] block as 32 windows of 128 tokens. -/
def windows (x : Vec Ideal S1x4096x64 .f32) : FVec Ideal S32x128x64 .f32 :=
  shapeCast S32x128x64 (shapeCast S4096x64 x shapeCasts_S1x4096x64_S4096x64) shapeCasts_S4096x64_S32x128x64

theorem windows_apply (x : Vec Ideal S1x4096x64 .f32) (w : Fin 32) (i : Fin 128) (e : Fin 64) :
    windows x (ix3 w i e) = x (ix3 (0 : Fin 1) (tok w i) e) := by
  unfold windows
  refine (shapeCast_apply _ shapeCasts_S4096x64_S32x128x64 (ix3 w i e) (ix2 (tok w i) e) ?_).trans ?_
  · rw [Shape.rowMajor_val_two, Shape.rowMajor_val_three]; rfl
  · exact shapeCast_1ab_ab_apply x shapeCasts_S1x4096x64_S4096x64 (tok w i) e

/-- 32 windows of 128 result rows back as a [1, 4096, 64] block. -/
def toBlock (o : FVec Ideal S32x128x64 .f32) : FVec Ideal S1x4096x64 .f32 :=
  shapeCast S1x4096x64 (shapeCast S4096x64 o shapeCasts_S32x128x64_S4096x64) shapeCasts_S4096x64_S1x4096x64

theorem toBlock_apply (o : FVec Ideal S32x128x64 .f32) (u : Fin 1) (n : Fin 4096) (e : Fin 64) :
    toBlock o (ix3 u n e)
      = o (ix3 (⟨n.val / 128, by have := n.isLt; omega⟩ : Fin 32) (⟨n.val % 128, by omega⟩ : Fin 128) e) := by
  unfold toBlock
  refine (shapeCast_ab_1ab_apply _ shapeCasts_S4096x64_S1x4096x64 u n e).trans ?_
  refine shapeCast_apply o shapeCasts_S32x128x64_S4096x64 (ix2 n e) _ ?_
  rw [Shape.rowMajor_val_two, Shape.rowMajor_val_three]
  show (n.val / 128 * 128 + n.val % 128) * 64 + e.val = n.val * 64 + e.val
  omega

/-- The look-around columns of the keys (or values): before each window its predecessor, before the first a row of −1. -/
def lookAround (y : FVec Ideal S32x128x64 .bf16) : FVec Ideal S32x256x64 .bf16 :=
  concatenate S32x256x64 1
    [⟨S32x128x64, concatenate S32x128x64 0
        [⟨S1x128x64, broadcast S1x128x64 (Scalar.ofBits (F := Ideal) .bf16 0xBF80#16)⟩,
         ⟨S31x128x64, extractStridedSlice S31x128x64 ![0, 0, 0] y slices_S32x128x64_o0_0_0_S31x128x64⟩]
        concatenates_S1x128x64_S31x128x64_S32x128x64_d0⟩,
     ⟨S32x128x64, y⟩]
    concatenates_S32x128x64_S32x128x64_S32x256x64_d1

theorem lookAround_apply (y : FVec Ideal S32x128x64 .bf16) (w : Fin 32) (j : Fin 256) (e : Fin 64) :
    lookAround y (ix3 w j e)
      = if hj : j.val < 128 then
          if hw : w.val = 0 then padv
          else y (ix3 (⟨w.val - 1, by have := w.isLt; omega⟩ : Fin 32) (⟨j.val, hj⟩ : Fin 128) e)
        else y (ix3 w (⟨j.val - 128, by have := j.isLt; omega⟩ : Fin 128) e) := by
  unfold lookAround
  by_cases hj : j.val < 128
  · rw [dif_pos hj]
    refine (concatenate_pair_apply_left (t := S32x256x64) (s₁ := S32x128x64) (s₂ := S32x128x64) (1 : Fin 3) _ _ concatenates_S32x128x64_S32x128x64_S32x256x64_d1 (ix3 w j e) rfl
      (ix3 w (⟨j.val, hj⟩ : Fin 128) e) (fun b => match b with | ⟨0, _⟩ => rfl | ⟨1, _⟩ => rfl | ⟨2, _⟩ => rfl)).trans ?_
    by_cases hw : w.val = 0
    · rw [dif_pos hw]
      refine (concatenate_pair_apply_left (t := S32x128x64) (s₁ := S1x128x64) (s₂ := S31x128x64) (0 : Fin 3) _ _ concatenates_S1x128x64_S31x128x64_S32x128x64_d0
        (ix3 w (⟨j.val, hj⟩ : Fin 128) e) rfl (ix3 (0 : Fin 1) (⟨j.val, hj⟩ : Fin 128) e)
        (fun b => match b with | ⟨0, _⟩ => hw.symm | ⟨1, _⟩ => rfl | ⟨2, _⟩ => rfl)).trans ?_
      exact padv_bf16
    · rw [dif_neg hw]
      refine (concatenate_pair_apply_right (t := S32x128x64) (s₁ := S1x128x64) (s₂ := S31x128x64) (0 : Fin 3) _ _ concatenates_S1x128x64_S31x128x64_S32x128x64_d0
        (ix3 w (⟨j.val, hj⟩ : Fin 128) e) rfl rfl
        (ix3 (⟨w.val - 1, by have := w.isLt; omega⟩ : Fin 31) (⟨j.val, hj⟩ : Fin 128) e)
        (fun b hb => match b, hb with
          | ⟨0, _⟩, hb => absurd rfl hb
          | ⟨1, _⟩, _ => rfl
          | ⟨2, _⟩, _ => rfl)
        (by show (w.val - 1) + 1 = w.val; omega)).trans ?_
      exact extractStridedSlice_apply ![0, 0, 0] y slices_S32x128x64_o0_0_0_S31x128x64 _ _
        (fun a => match a with
          | ⟨0, _⟩ => by show w.val - 1 = 0 + (w.val - 1); omega
          | ⟨1, _⟩ => by show j.val = 0 + j.val; omega
          | ⟨2, _⟩ => by show e.val = 0 + e.val; omega)
  · rw [dif_neg hj]
    exact concatenate_pair_apply_right (t := S32x256x64) (s₁ := S32x128x64) (s₂ := S32x128x64) (1 : Fin 3) _ _ concatenates_S32x128x64_S32x128x64_S32x256x64_d1 (ix3 w j e) rfl rfl
      (ix3 w (⟨j.val - 128, by have := j.isLt; omega⟩ : Fin 128) e)
      (fun b hb => match b, hb with
        | ⟨0, _⟩, _ => rfl
        | ⟨1, _⟩, hb => absurd rfl hb
        | ⟨2, _⟩, _ => rfl)
      (by show (j.val - 128) + 128 = j.val; omega)

/-- A [32, 128] array of per-row values repeated along the 256 columns. -/
def alongCols (r : FVec Ideal S32x128 .f32) : FVec Ideal S32x128x256 .f32 :=
  broadcastTo S32x128x256 (shapeCast S32x128x1 r shapeCasts_S32x128_S32x128x1) broadcasts_S32x128x1_S32x128x256

theorem alongCols_apply (r : FVec Ideal S32x128 .f32) (w : Fin 32) (i : Fin 128) (j : Fin 256) :
    alongCols r (ix3 w i j) = r (ix2 w i) := by
  unfold alongCols
  refine (broadcastTo_apply _ broadcasts_S32x128x1_S32x128x256 (ix3 w i j) (ix3 w i (0 : Fin 1)) (fun a => match a with
    | ⟨0, _⟩ => by show w.val = if (32 : Nat) = 1 then 0 else w.val; rw [if_neg (by decide)]
    | ⟨1, _⟩ => by show i.val = if (128 : Nat) = 1 then 0 else i.val; rw [if_neg (by decide)]
    | ⟨2, _⟩ => by show 0 = if (1 : Nat) = 1 then 0 else j.val; rw [if_pos rfl])).trans ?_
  refine shapeCast_apply r shapeCasts_S32x128_S32x128x1 _ (ix2 w i) ?_
  rw [Shape.rowMajor_val_two, Shape.rowMajor_val_three]
  show w.val * 128 + i.val = (w.val * 128 + i.val) * 1 + 0
  omega

end Cert.KernelIdeal.Body

end
-- ==== Proof.KernelProducts.lean ====
/-
  The kernel body's two batched products read at an entry as sums over the contracted coordinate: the scores over the
  64 features, the weighted sum over the 256 look-around columns. Into a zero accumulator a product on the matrix unit
  is, on the extended reals, just that sum.
-/
import proofs.«156112_j31894427140634_1_alg».proof.Proof.Gen.KernelIdeal
import proofs.«156112_j31894427140634_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.LocalAttn

/-! ## The two products -/

theorem d1_lhs_0 (i : S32x128x256.Idx) (q : dot_S32x128x64_S32x256x64_S32x128x256_2_2_1_1_0_0.contr.Idx) : (dot_S32x128x64_S32x256x64_S32x128x256_2_2_1_1_0_0.lhsIdx i q 0).val = (i 0).val := by
  unfold DotDims.lhsIdx
  rw [dif_pos (show (0 : Fin S32x128x64.rank) ∈ dot_S32x128x64_S32x256x64_S32x128x256_2_2_1_1_0_0.lhsBatch by decide)]
  rfl
theorem d1_lhs_1 (i : S32x128x256.Idx) (q : dot_S32x128x64_S32x256x64_S32x128x256_2_2_1_1_0_0.contr.Idx) : (dot_S32x128x64_S32x256x64_S32x128x256_2_2_1_1_0_0.lhsIdx i q 1).val = (i 1).val := by
  unfold DotDims.lhsIdx
  rw [dif_neg (show ¬(1 : Fin S32x128x64.rank) ∈ dot_S32x128x64_S32x256x64_S32x128x256_2_2_1_1_0_0.lhsBatch by decide), dif_pos (show (1 : Fin S32x128x64.rank) ∈ dot_S32x128x64_S32x256x64_S32x128x256_2_2_1_1_0_0.lhsNonContracting by decide)]
  rfl
theorem d1_lhs_2 (i : S32x128x256.Idx) (q : dot_S32x128x64_S32x256x64_S32x128x256_2_2_1_1_0_0.contr.Idx) : (dot_S32x128x64_S32x256x64_S32x128x256_2_2_1_1_0_0.lhsIdx i q 2).val = (q ⟨0, by decide⟩).val :=
  dot_S32x128x64_S32x256x64_S32x128x256_2_2_1_1_0_0.lhsIdx_val_of_single rfl i q
theorem d1_rhs_0 (i : S32x128x256.Idx) (q : dot_S32x128x64_S32x256x64_S32x128x256_2_2_1_1_0_0.contr.Idx) : (dot_S32x128x64_S32x256x64_S32x128x256_2_2_1_1_0_0.rhsIdx i q 0).val = (i 0).val := by
  unfold DotDims.rhsIdx
  rw [dif_pos (show (0 : Fin S32x256x64.rank) ∈ dot_S32x128x64_S32x256x64_S32x128x256_2_2_1_1_0_0.rhsBatch by decide)]
  rfl
theorem d1_rhs_1 (i : S32x128x256.Idx) (q : dot_S32x128x64_S32x256x64_S32x128x256_2_2_1_1_0_0.contr.Idx) : (dot_S32x128x64_S32x256x64_S32x128x256_2_2_1_1_0_0.rhsIdx i q 1).val = (i 2).val := by
  unfold DotDims.rhsIdx
  rw [dif_neg (show ¬(1 : Fin S32x256x64.rank) ∈ dot_S32x128x64_S32x256x64_S32x128x256_2_2_1_1_0_0.rhsBatch by decide), dif_pos (show (1 : Fin S32x256x64.rank) ∈ dot_S32x128x64_S32x256x64_S32x128x256_2_2_1_1_0_0.rhsNonContracting by decide)]
  rfl
theorem d1_rhs_2 (i : S32x128x256.Idx) (q : dot_S32x128x64_S32x256x64_S32x128x256_2_2_1_1_0_0.contr.Idx) : (dot_S32x128x64_S32x256x64_S32x128x256_2_2_1_1_0_0.rhsIdx i q 2).val = (q ⟨0, by decide⟩).val :=
  dot_S32x128x64_S32x256x64_S32x128x256_2_2_1_1_0_0.rhsIdx_val_of_single rfl i q

/-- Scores: per window, the product of the query rows with the look-around key rows over the 64 features. -/
def scoresK (qs : FVec Ideal S32x128x64 .bf16) (kk : FVec Ideal S32x256x64 .bf16) : FVec Ideal S32x128x256 .f32 :=
  matmul dot_S32x128x64_S32x256x64_S32x128x256_2_2_1_1_0_0 none qs kk (constant S32x128x256 .f32 0x00000000#32)

theorem scoresK_apply (qs : FVec Ideal S32x128x64 .bf16) (kk : FVec Ideal S32x256x64 .bf16) (w : Fin 32) (i : Fin 128) (j : Fin 256) :
    scoresK qs kk (ix3 w i j) = ∑ e : Fin 64, qs (ix3 w i e) * kk (ix3 w j e) := by
  unfold scoresK
  simp only [matmul]
  rw [Ideal.matmul_constant_zero_apply, ← Equiv.sum_comp (contrEquiv1 dot_S32x128x64_S32x256x64_S32x128x256_2_2_1_1_0_0 64 rfl rfl).symm]
  refine Finset.sum_congr rfl fun k _ => ?_
  have hk := contrEquiv1_symm_val dot_S32x128x64_S32x256x64_S32x128x256_2_2_1_1_0_0 64 rfl rfl k
  have el : dot_S32x128x64_S32x256x64_S32x128x256_2_2_1_1_0_0.lhsIdx (ix3 w i j) ((contrEquiv1 dot_S32x128x64_S32x256x64_S32x128x256_2_2_1_1_0_0 64 rfl rfl).symm k) = ix3 w i k := funext fun a => Fin.ext (by
    match a with
    | ⟨0, _⟩ => exact d1_lhs_0 _ _
    | ⟨1, _⟩ => exact d1_lhs_1 _ _
    | ⟨2, _⟩ => exact (d1_lhs_2 _ _).trans hk)
  have er : dot_S32x128x64_S32x256x64_S32x128x256_2_2_1_1_0_0.rhsIdx (ix3 w i j) ((contrEquiv1 dot_S32x128x64_S32x256x64_S32x128x256_2_2_1_1_0_0 64 rfl rfl).symm k) = ix3 w j k := funext fun a => Fin.ext (by
    match a with
    | ⟨0, _⟩ => exact d1_rhs_0 _ _
    | ⟨1, _⟩ => exact d1_rhs_1 _ _
    | ⟨2, _⟩ => exact (d1_rhs_2 _ _).trans hk)
  rw [el, er]

theorem d2_lhs_0 (i : S32x128x64.Idx) (q : dot_S32x128x256_S32x256x64_S32x128x64_2_1_1_2_0_0.contr.Idx) : (dot_S32x128x256_S32x256x64_S32x128x64_2_1_1_2_0_0.lhsIdx i q 0).val = (i 0).val := by
  unfold DotDims.lhsIdx
  rw [dif_pos (show (0 : Fin S32x128x256.rank) ∈ dot_S32x128x256_S32x256x64_S32x128x64_2_1_1_2_0_0.lhsBatch by decide)]
  rfl
theorem d2_lhs_1 (i : S32x128x64.Idx) (q : dot_S32x128x256_S32x256x64_S32x128x64_2_1_1_2_0_0.contr.Idx) : (dot_S32x128x256_S32x256x64_S32x128x64_2_1_1_2_0_0.lhsIdx i q 1).val = (i 1).val := by
  unfold DotDims.lhsIdx
  rw [dif_neg (show ¬(1 : Fin S32x128x256.rank) ∈ dot_S32x128x256_S32x256x64_S32x128x64_2_1_1_2_0_0.lhsBatch by decide), dif_pos (show (1 : Fin S32x128x256.rank) ∈ dot_S32x128x256_S32x256x64_S32x128x64_2_1_1_2_0_0.lhsNonContracting by decide)]
  rfl
theorem d2_lhs_2 (i : S32x128x64.Idx) (q : dot_S32x128x256_S32x256x64_S32x128x64_2_1_1_2_0_0.contr.Idx) : (dot_S32x128x256_S32x256x64_S32x128x64_2_1_1_2_0_0.lhsIdx i q 2).val = (q ⟨0, by decide⟩).val :=
  dot_S32x128x256_S32x256x64_S32x128x64_2_1_1_2_0_0.lhsIdx_val_of_single rfl i q
theorem d2_rhs_0 (i : S32x128x64.Idx) (q : dot_S32x128x256_S32x256x64_S32x128x64_2_1_1_2_0_0.contr.Idx) : (dot_S32x128x256_S32x256x64_S32x128x64_2_1_1_2_0_0.rhsIdx i q 0).val = (i 0).val := by
  unfold DotDims.rhsIdx
  rw [dif_pos (show (0 : Fin S32x256x64.rank) ∈ dot_S32x128x256_S32x256x64_S32x128x64_2_1_1_2_0_0.rhsBatch by decide)]
  rfl
theorem d2_rhs_1 (i : S32x128x64.Idx) (q : dot_S32x128x256_S32x256x64_S32x128x64_2_1_1_2_0_0.contr.Idx) : (dot_S32x128x256_S32x256x64_S32x128x64_2_1_1_2_0_0.rhsIdx i q 1).val = (q ⟨0, by decide⟩).val :=
  dot_S32x128x256_S32x256x64_S32x128x64_2_1_1_2_0_0.rhsIdx_val_of_single rfl i q
theorem d2_rhs_2 (i : S32x128x64.Idx) (q : dot_S32x128x256_S32x256x64_S32x128x64_2_1_1_2_0_0.contr.Idx) : (dot_S32x128x256_S32x256x64_S32x128x64_2_1_1_2_0_0.rhsIdx i q 2).val = (i 2).val := by
  unfold DotDims.rhsIdx
  rw [dif_neg (show ¬(2 : Fin S32x256x64.rank) ∈ dot_S32x128x256_S32x256x64_S32x128x64_2_1_1_2_0_0.rhsBatch by decide), dif_pos (show (2 : Fin S32x256x64.rank) ∈ dot_S32x128x256_S32x256x64_S32x128x64_2_1_1_2_0_0.rhsNonContracting by decide)]
  rfl

/-- The weighted sum: per window, the product of the weight rows with the look-around value columns over the 256 columns. -/
def mixK (a : FVec Ideal S32x128x256 .bf16) (vv : FVec Ideal S32x256x64 .bf16) : FVec Ideal S32x128x64 .f32 :=
  matmul dot_S32x128x256_S32x256x64_S32x128x64_2_1_1_2_0_0 none a vv (constant S32x128x64 .f32 0x00000000#32)

theorem mixK_apply (a : FVec Ideal S32x128x256 .bf16) (vv : FVec Ideal S32x256x64 .bf16) (w : Fin 32) (i : Fin 128) (e : Fin 64) :
    mixK a vv (ix3 w i e) = ∑ j : Fin 256, a (ix3 w i j) * vv (ix3 w j e) := by
  unfold mixK
  simp only [matmul]
  rw [Ideal.matmul_constant_zero_apply, ← Equiv.sum_comp (contrEquiv1 dot_S32x128x256_S32x256x64_S32x128x64_2_1_1_2_0_0 256 rfl rfl).symm]
  refine Finset.sum_congr rfl fun k _ => ?_
  have hk := contrEquiv1_symm_val dot_S32x128x256_S32x256x64_S32x128x64_2_1_1_2_0_0 256 rfl rfl k
  have el : dot_S32x128x256_S32x256x64_S32x128x64_2_1_1_2_0_0.lhsIdx (ix3 w i e) ((contrEquiv1 dot_S32x128x256_S32x256x64_S32x128x64_2_1_1_2_0_0 256 rfl rfl).symm k) = ix3 w i k := funext fun a => Fin.ext (by
    match a with
    | ⟨0, _⟩ => exact d2_lhs_0 _ _
    | ⟨1, _⟩ => exact d2_lhs_1 _ _
    | ⟨2, _⟩ => exact (d2_lhs_2 _ _).trans hk)
  have er : dot_S32x128x256_S32x256x64_S32x128x64_2_1_1_2_0_0.rhsIdx (ix3 w i e) ((contrEquiv1 dot_S32x128x256_S32x256x64_S32x128x64_2_1_1_2_0_0 256 rfl rfl).symm k) = ix3 w k e := funext fun a => Fin.ext (by
    match a with
    | ⟨0, _⟩ => exact d2_rhs_0 _ _
    | ⟨1, _⟩ => exact (d2_rhs_1 _ _).trans hk
    | ⟨2, _⟩ => exact d2_rhs_2 _ _)
  rw [el, er]

end Cert.KernelIdeal.Body

end
-- ==== Proof.KernelReduce.lean ====
/-
  The kernel body's two reductions along the 256 columns of a row, read at (w, i): the maximum as a fold of max from
  −∞ over the columns (taken once more against −∞, as the softmax spells it), the sum as a sum over the columns.
-/
import proofs.«156112_j31894427140634_1_alg».proof.Proof.Gen.KernelIdeal
import proofs.«156112_j31894427140634_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.LocalAttn

/-! ## The two reductions along the columns -/

/-- The index of column `k` in row (w, i). -/
theorem lift_cols (w : Fin 32) (i : Fin 128) (k : Fin 256) :
    reduces_S32x128x256_S32x128.lift (ix2 w i) k = ix3 w i k :=
  funext fun a => Fin.ext (by match a with | ⟨0, _⟩ => rfl | ⟨1, _⟩ => rfl | ⟨2, _⟩ => rfl)

/-- The word of −∞ as the body splats it. -/
theorem ninf_eq : (Scalar.ofBits (F := Ideal) .f32 0xFF800000#32 : EReal) = ninf := rfl

/-- The maximum over a row's columns, from −∞. -/
theorem colMax_apply (s : FVec Ideal S32x128x256 .f32) (w : Fin 32) (i : Fin 128) :
    multiReduction (F := Ideal) .maximumf [2] S32x128 s 0xFF800000#32 reduces_S32x128x256_S32x128 (.inl rfl) rfl (ix2 w i)
      = (Finset.univ : Finset (Fin 256)).fold max ninf (fun j => s (ix3 w i j)) := by
  have hf : (s ∘ reduces_S32x128x256_S32x128.lift (ix2 w i)) = fun j : Fin 256 => s (ix3 w i j) :=
    funext fun k => congrArg s (lift_cols w i k)
  have h1 := Ideal.multiReduction_maximumf_single s 0xFF800000#32 reduces_S32x128x256_S32x128 (.inl rfl) rfl (ix2 w i)
  rw [hf] at h1
  exact h1

/-- A row's maximum, taken from −∞ and once more against −∞. -/
def rowMaxK (s : FVec Ideal S32x128x256 .f32) : FVec Ideal S32x128 .f32 :=
  maximumf (broadcast S32x128 (Scalar.ofBits (F := Ideal) .f32 0xFF800000#32))
    (multiReduction .maximumf [2] S32x128 s 0xFF800000#32 reduces_S32x128x256_S32x128 (.inl rfl) rfl)

theorem rowMaxK_apply (s : FVec Ideal S32x128x256 .f32) (w : Fin 32) (i : Fin 128) :
    rowMaxK s (ix2 w i) = max ninf ((Finset.univ : Finset (Fin 256)).fold max ninf (fun j => s (ix3 w i j))) := by
  unfold rowMaxK
  rw [maximumf_apply, broadcast_apply, colMax_apply, ninf_eq]

/-- A row's sum. -/
def rowSumK (s : FVec Ideal S32x128x256 .f32) : FVec Ideal S32x128 .f32 :=
  multiReduction .add [2] S32x128 s 0x00000000#32 reduces_S32x128x256_S32x128 (.inl rfl) rfl

theorem rowSumK_apply (s : FVec Ideal S32x128x256 .f32) (w : Fin 32) (i : Fin 128) :
    rowSumK s (ix2 w i) = ∑ j : Fin 256, s (ix3 w i j) :=
  (Ideal.multiReduction_add_single s 0x00000000#32 reduces_S32x128x256_S32x128 (.inl rfl) rfl (ix2 w i)).trans
    (Finset.sum_congr rfl fun k _ => congrArg s (lift_cols w i k))

end Cert.KernelIdeal.Body

end
-- ==== Proof.KernelBody.lean ====
/-
  The kernel body's payload as the slab specification.

  One grid point handles one slab. The payload is the composition of the stages read in the layout, product and
  reduction modules: the three input blocks as windows; the queries times ⅛; the look-around keys and values; the scores;
  the softmax along the 256 columns (maximum from −∞, exponential of the difference, division by the row's sum); the
  weights multiplied into the values; the 32 windows back as a block. Changes of float format are the identity on the
  extended reals, so the two products' bfloat16 operands are the binary32 values themselves. At entry (0, n, e) of the
  output block the payload is the specification's `attend` at window n / 128, token n % 128, feature e.
-/
import proofs.«156112_j31894427140634_1_alg».proof.Proof.Gen.KernelIdeal.Skeleton
import proofs.«156112_j31894427140634_1_alg».proof.Proof.AttnSpec
import proofs.«156112_j31894427140634_1_alg».proof.Proof.KernelLayout
import proofs.«156112_j31894427140634_1_alg».proof.Proof.KernelProducts
import proofs.«156112_j31894427140634_1_alg».proof.Proof.KernelReduce
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LocalAttn

/-! ## The payload, stage by stage on the slab -/

/-- The elementwise exponential read at an entry. -/
theorem exp_apply {s : Shape} (v : FVec Ideal s .f32) (i : s.Idx) : Idealize.ShloMosaic.exp v i = Ideal.exp (v i) := rfl

/-- The word of ⅛ as the body splats it. -/
theorem scale_eq : (Scalar.ofBits (F := Ideal) .f32 0x3E000000#32 : EReal) = scale := rfl

/-- The rows of a [1, 4096, 64] block as a slab. -/
def rows (x : Vec Ideal S1x4096x64 .f32) : Slab := fun n e => x (ix3 (0 : Fin 1) n e)

/-- The look-around keys (or values) of a block, in the products' operand format. -/
def lookK (x : Vec Ideal S1x4096x64 .f32) : FVec Ideal S32x256x64 .bf16 :=
  lookAround (truncf .bf16 (windows x) bitsLt_bf16_f32)

theorem lookK_apply (x : Vec Ideal S1x4096x64 .f32) (w : Fin 32) (j : Fin 256) (e : Fin 64) :
    lookK x (ix3 w j e) = look (rows x) w j e := by
  unfold lookK look
  rw [lookAround_apply]
  by_cases hj : j.val < 128
  · rw [dif_pos hj, dif_pos hj]
    by_cases hw : w.val = 0
    · rw [dif_pos hw, dif_pos hw]
    · rw [dif_neg hw, dif_neg hw, truncf_apply]
      exact windows_apply x _ _ e
  · rw [dif_neg hj, dif_neg hj, truncf_apply]
    exact windows_apply x _ _ e

def scoreK (x0 x1 : Vec Ideal S1x4096x64 .f32) : FVec Ideal S32x128x256 .f32 :=
  scoresK (truncf .bf16 (mulf (windows x0) (broadcast S32x128x64 (Scalar.ofBits (F := Ideal) .f32 0x3E000000#32))) bitsLt_bf16_f32) (lookK x1)

theorem scoreK_apply (x0 x1 : Vec Ideal S1x4096x64 .f32) (w : Fin 32) (i : Fin 128) (j : Fin 256) :
    scoreK x0 x1 (ix3 w i j) = score (rows x0) (rows x1) w i j := by
  unfold scoreK score
  rw [scoresK_apply]
  refine Finset.sum_congr rfl fun e _ => ?_
  rw [lookK_apply, truncf_apply, mulf_apply, broadcast_apply, windows_apply, scale_eq]
  rfl

def maxK (x0 x1 : Vec Ideal S1x4096x64 .f32) : FVec Ideal S32x128 .f32 := rowMaxK (scoreK x0 x1)

theorem maxK_apply (x0 x1 : Vec Ideal S1x4096x64 .f32) (w : Fin 32) (i : Fin 128) :
    maxK x0 x1 (ix2 w i) = rowMax (rows x0) (rows x1) w i := by
  unfold maxK rowMax
  rw [rowMaxK_apply]
  simp only [scoreK_apply]

def expK (x0 x1 : Vec Ideal S1x4096x64 .f32) : FVec Ideal S32x128x256 .f32 :=
  Idealize.ShloMosaic.exp (subf (scoreK x0 x1) (alongCols (maxK x0 x1)))

theorem expK_apply (x0 x1 : Vec Ideal S1x4096x64 .f32) (w : Fin 32) (i : Fin 128) (j : Fin 256) :
    expK x0 x1 (ix3 w i j) = expo (rows x0) (rows x1) w i j := by
  unfold expK expo
  rw [exp_apply, subf_apply, scoreK_apply, alongCols_apply, maxK_apply]

def sumK (x0 x1 : Vec Ideal S1x4096x64 .f32) : FVec Ideal S32x128 .f32 := rowSumK (expK x0 x1)

theorem sumK_apply (x0 x1 : Vec Ideal S1x4096x64 .f32) (w : Fin 32) (i : Fin 128) :
    sumK x0 x1 (ix2 w i) = denom (rows x0) (rows x1) w i := by
  unfold sumK denom
  rw [rowSumK_apply]
  simp only [expK_apply]

def weightK (x0 x1 : Vec Ideal S1x4096x64 .f32) : FVec Ideal S32x128x256 .f32 :=
  divf (expK x0 x1) (alongCols (sumK x0 x1))

theorem weightK_apply (x0 x1 : Vec Ideal S1x4096x64 .f32) (w : Fin 32) (i : Fin 128) (j : Fin 256) :
    weightK x0 x1 (ix3 w i j) = weight (rows x0) (rows x1) w i j := by
  unfold weightK weight
  rw [divf_apply, expK_apply, alongCols_apply, sumK_apply]

def outK (x0 x1 x2 : Vec Ideal S1x4096x64 .f32) : FVec Ideal S32x128x64 .f32 :=
  mixK (truncf .bf16 (weightK x0 x1) bitsLt_bf16_f32) (lookK x2)

theorem outK_apply (x0 x1 x2 : Vec Ideal S1x4096x64 .f32) (w : Fin 32) (i : Fin 128) (e : Fin 64) :
    outK x0 x1 x2 (ix3 w i e) = attend (rows x0) (rows x1) (rows x2) w i e := by
  unfold outK attend
  rw [mixK_apply]
  refine Finset.sum_congr rfl fun j _ => ?_
  rw [lookK_apply, truncf_apply, weightK_apply]

set_option maxRecDepth 65536 in
/-- The payload is the composition of the stages. -/
theorem pay_eq (x0 x1 x2 : Vec Ideal S1x4096x64 .f32) : k0_pay1 (F := Ideal) x0 x1 x2 = toBlock (outK x0 x1 x2) := rfl

/-- THE BODY'S RESULT at entry (0, n, e) of the output block: the slab's attention output at window n / 128,
    token n % 128, feature e, of the three input blocks' rows. -/
theorem pay_apply (x0 x1 x2 : Vec Ideal S1x4096x64 .f32) (u : Fin 1) (n : Fin 4096) (e : Fin 64) :
    k0_pay1 (F := Ideal) x0 x1 x2 (ix3 u n e)
      = attend (rows x0) (rows x1) (rows x2)
          (⟨n.val / 128, by have := n.isLt; omega⟩ : Fin 32) (⟨n.val % 128, by omega⟩ : Fin 128) e := by
  rw [pay_eq, toBlock_apply, outK_apply]

end Cert.KernelIdeal.Body

end
-- ==== Proof.KernelArray.lean ====
/-
  The idealized kernel's run, read as one function of the arguments.

  The host merges batch and head ([8, 8, 4096, 64] viewed [64, 4096, 64]); the grid has one point per slab, whose three
  input blocks are row `t` of the three merged arrays, that is slab `t` of the three arguments; the point writes back, as
  row `t` of the merged result, the body's payload, which is the slab specification's attention output; the 64 rows
  tile the merged result, so after the region it holds the specification with batch and head merged; the host's last
  line views it back as [8, 8, 4096, 64]. So every weakly fair execution ends with the result array at the
  specification's `result` of the three arguments, the arguments unchanged.
-/
import proofs.«156112_j31894427140634_1_alg».proof.Proof.Gen.KernelIdeal.Frame
import proofs.«156112_j31894427140634_1_alg».proof.Proof.KernelBody
import proofs.«156112_j31894427140634_1_alg».proof.Proof.AttnSpec
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.LocalAttn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps, over the 64 grid points: point `t` takes row `t` of each merged array -/

theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx_facts1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx_facts2 : ∀ t : Fin cfg0.N, win0_2.index t (0 : Fin 3) = t.val ∧ win0_2.index t (1 : Fin 3) = 0 ∧ win0_2.index t (2 : Fin 3) = 0 :=
  (by decide +kernel : ∀ t : Fin grid0.N, _)

theorem idx_facts3 : ∀ t : Fin cfg0.N, win0_3.index t (0 : Fin 3) = t.val ∧ win0_3.index t (1 : Fin 3) = 0 ∧ win0_3.index t (2 : Fin 3) = 0 :=
  (by decide +kernel : ∀ t : Fin grid0.N, _)

/-! ## The merged arrays -/

/-- Entry (B, n, e) of an argument with batch and head merged is token n of slab B. -/
theorem merged_apply (x : S8x8x4096x64.Idx → EReal) (B : Fin 64) (n : Fin 4096) (e : Fin 64) :
    shapeCast S64x4096x64 x shapeCasts_S8x8x4096x64_S64x4096x64 (ix3 B n e) = slab x B n e := by
  unfold slab
  refine shapeCast_apply x shapeCasts_S8x8x4096x64_S64x4096x64 (ix3 B n e) _ ?_
  rw [Shape.rowMajor_val_three, Shape.rowMajor_val_four]
  show ((B.val / 8 * 8 + B.val % 8) * 4096 + n.val) * 64 + e.val = (B.val * 4096 + n.val) * 64 + e.val
  omega

/-- The host's reshape before the region: array 0 as the region finds it is argument 0 with batch and head merged. -/
theorem entry0 (c : Dev nD) :
    (V m c main_v0 : S64x4096x64.Idx → EReal)
      = shapeCast S64x4096x64 (m ((c : Thread nD τ).loc main_arg0)) shapeCasts_S8x8x4096x64_S64x4096x64 := by
  show StableHlo.after hostOps0 (fun b => m (c, b)) (Proc.devRef .tc main_v0) = _
  after_results
  rfl

/-- The host's reshape before the region: array 1 as the region finds it is argument 1 with batch and head merged. -/
theorem entry1 (c : Dev nD) :
    (V m c main_v1 : S64x4096x64.Idx → EReal)
      = shapeCast S64x4096x64 (m ((c : Thread nD τ).loc main_arg1)) shapeCasts_S8x8x4096x64_S64x4096x64 := by
  show StableHlo.after hostOps0 (fun b => m (c, b)) (Proc.devRef .tc main_v1) = _
  after_results
  rfl

/-- The host's reshape before the region: array 2 as the region finds it is argument 2 with batch and head merged. -/
theorem entry2 (c : Dev nD) :
    (V m c main_v2 : S64x4096x64.Idx → EReal)
      = shapeCast S64x4096x64 (m ((c : Thread nD τ).loc main_arg2)) shapeCasts_S8x8x4096x64_S64x4096x64 := by
  show StableHlo.after hostOps0 (fun b => m (c, b)) (Proc.devRef .tc main_v2) = _
  after_results
  rfl

/-! ## The input blocks -/

/-- Input block 0 at grid point `t` is slab `t` of argument 0: the host's merge of batch and head puts slab b·8 + h at
    position b·8 + h of the [64, 4096, 64] array, and the window's block at point `t` is that array's row `t`. -/
theorem rows_iblk0 (c : Dev nD) (t : Fin cfg0.N) :
    rows (iblk m c 0 t) = slab (m ((c : Thread nD τ).loc main_arg0)) (⟨t.val, by have h := t.isLt; have hN : cfg0.N = 64 := N_0; omega⟩ : Fin 64) := by
  have hi : win0_0.index t (0 : Fin 3) = t.val ∧ win0_0.index t (1 : Fin 3) = 0 ∧ win0_0.index t (2 : Fin 3) = 0 := idx_facts0 t
  funext n e
  unfold rows iblk
  rw [View.read_apply]
  show V m c main_v0 _ = _
  rw [entry0]
  refine Eq.trans (congrArg _ ?_) (merged_apply _ (⟨t.val, by have h := t.isLt; have hN : cfg0.N = 64 := N_0; omega⟩ : Fin 64) n e)
  funext a
  apply Fin.ext
  match a with
  | ⟨0, _⟩ => show win0_0.index t (0 : Fin 3) * 1 + 1 * 0 = t.val; rw [hi.1]; omega
  | ⟨1, _⟩ => show win0_0.index t (1 : Fin 3) * 4096 + 1 * n.val = n.val; rw [hi.2.1]; omega
  | ⟨2, _⟩ => show win0_0.index t (2 : Fin 3) * 64 + 1 * e.val = e.val; rw [hi.2.2]; omega

/-- Input block 1 at grid point `t` is slab `t` of argument 1: the host's merge of batch and head puts slab b·8 + h at
    position b·8 + h of the [64, 4096, 64] array, and the window's block at point `t` is that array's row `t`. -/
theorem rows_iblk1 (c : Dev nD) (t : Fin cfg0.N) :
    rows (iblk m c 1 t) = slab (m ((c : Thread nD τ).loc main_arg1)) (⟨t.val, by have h := t.isLt; have hN : cfg0.N = 64 := N_0; omega⟩ : Fin 64) := by
  have hi : win0_1.index t (0 : Fin 3) = t.val ∧ win0_1.index t (1 : Fin 3) = 0 ∧ win0_1.index t (2 : Fin 3) = 0 := idx_facts1 t
  funext n e
  unfold rows iblk
  rw [View.read_apply]
  show V m c main_v1 _ = _
  rw [entry1]
  refine Eq.trans (congrArg _ ?_) (merged_apply _ (⟨t.val, by have h := t.isLt; have hN : cfg0.N = 64 := N_0; omega⟩ : Fin 64) n e)
  funext a
  apply Fin.ext
  match a with
  | ⟨0, _⟩ => show win0_1.index t (0 : Fin 3) * 1 + 1 * 0 = t.val; rw [hi.1]; omega
  | ⟨1, _⟩ => show win0_1.index t (1 : Fin 3) * 4096 + 1 * n.val = n.val; rw [hi.2.1]; omega
  | ⟨2, _⟩ => show win0_1.index t (2 : Fin 3) * 64 + 1 * e.val = e.val; rw [hi.2.2]; omega

/-- Input block 2 at grid point `t` is slab `t` of argument 2: the host's merge of batch and head puts slab b·8 + h at
    position b·8 + h of the [64, 4096, 64] array, and the window's block at point `t` is that array's row `t`. -/
theorem rows_iblk2 (c : Dev nD) (t : Fin cfg0.N) :
    rows (iblk m c 2 t) = slab (m ((c : Thread nD τ).loc main_arg2)) (⟨t.val, by have h := t.isLt; have hN : cfg0.N = 64 := N_0; omega⟩ : Fin 64) := by
  have hi : win0_2.index t (0 : Fin 3) = t.val ∧ win0_2.index t (1 : Fin 3) = 0 ∧ win0_2.index t (2 : Fin 3) = 0 := idx_facts2 t
  funext n e
  unfold rows iblk
  rw [View.read_apply]
  show V m c main_v2 _ = _
  rw [entry2]
  refine Eq.trans (congrArg _ ?_) (merged_apply _ (⟨t.val, by have h := t.isLt; have hN : cfg0.N = 64 := N_0; omega⟩ : Fin 64) n e)
  funext a
  apply Fin.ext
  match a with
  | ⟨0, _⟩ => show win0_2.index t (0 : Fin 3) * 1 + 1 * 0 = t.val; rw [hi.1]; omega
  | ⟨1, _⟩ => show win0_2.index t (1 : Fin 3) * 4096 + 1 * n.val = n.val; rw [hi.2.1]; omega
  | ⟨2, _⟩ => show win0_2.index t (2 : Fin 3) * 64 + 1 * e.val = e.val; rw [hi.2.2]; omega

/-! ## What a point writes back, and the merged result -/

/-- The three arguments on core `c`. -/
abbrev argQ (c : Dev nD) : A4.Idx → EReal := m ((c : Thread nD τ).loc main_arg0)
abbrev argK (c : Dev nD) : A4.Idx → EReal := m ((c : Thread nD τ).loc main_arg1)
abbrev argV (c : Dev nD) : A4.Idx → EReal := m ((c : Thread nD τ).loc main_arg2)

/-- WHAT POINT `t` WRITES BACK is row `t` of the specification with batch and head merged. -/
theorem flushed_eq (c : Dev nD) (t : Fin cfg0.N) :
    (dats m 0 c).flushed 3 t = ((cfg0.win 3).blk t).view.read (Elt Ideal) (result3 (argQ m c) (argK m c) (argV m c)) := by
  have hi : win0_3.index t (0 : Fin 3) = t.val ∧ win0_3.index t (1 : Fin 3) = 0 ∧ win0_3.index t (2 : Fin 3) = 0 := idx_facts3 t
  show (cfg0.win 3).cut (grid0.coords t) ((dats m 0 c).after 3 t) = _
  rw [after0_3]
  unfold out0_3
  rw [View.canon_unit_zero hz]
  simp only [View.ld_unit_zero (S := S1x4096x64) hz]
  funext y
  obtain ⟨u, n, e, rfl⟩ : ∃ (u : Fin 1) (n : Fin 4096) (e : Fin 64), y = ix3 u n e := ⟨y 0, y 1, y 2, eq_ix3 y⟩
  rw [View.read_apply]
  have hemb : ((cfg0.win 3).blk t).view.emb (ix3 u n e)
      = ix3 (⟨t.val, by have h := t.isLt; have hN : cfg0.N = 64 := N_0; omega⟩ : Fin 64) n e :=
    funext fun a => Fin.ext (by
      have hu : u.val = 0 := by omega
      match a with
      | ⟨0, _⟩ => show win0_3.index t (0 : Fin 3) * 1 + 1 * u.val = t.val; rw [hi.1, hu]; omega
      | ⟨1, _⟩ => show win0_3.index t (1 : Fin 3) * 4096 + 1 * n.val = n.val; rw [hi.2.1]; omega
      | ⟨2, _⟩ => show win0_3.index t (2 : Fin 3) * 64 + 1 * e.val = e.val; rw [hi.2.2]; omega)
  rw [hemb]
  refine (pay_apply (iblk m c 0 t) (iblk m c 1 t) (iblk m c 2 t) u n e).trans ?_
  rw [rows_iblk0, rows_iblk1, rows_iblk2]
  rfl

/-- An index of the merged result is in point `t`'s block iff each coordinate is in the block's range. -/
theorem mem_blk (t : Fin cfg0.N) (i : S64x4096x64.Idx) :
    i ∈ ((cfg0.win 3).blk t).view.set ↔ ∀ a : Fin 3, win0_3.index t a * S1x4096x64.size a ≤ (i a).val ∧ (i a).val < win0_3.index t a * S1x4096x64.size a + S1x4096x64.size a := by
  show i ∈ ((View.whole main_v3).slice (win0_3.rect t)).set ↔ _
  rw [View.set_slice_whole, Rect.mem_set_unit]
  exact Iff.rfl

/-- Every entry of the merged result is in the block of the point its row names. -/
theorem cover (i : S64x4096x64.Idx) : ∃ t : Fin cfg0.N, (cfg0.win 3).flush t = true ∧ i ∈ ((cfg0.win 3).blk t).view.set := by
  have h0 : (i 0).val < 64 := (i 0).isLt
  have h1 : (i 1).val < 4096 := (i 1).isLt
  have h2 : (i 2).val < 64 := (i 2).isLt
  have hN : cfg0.N = 64 := N_0
  obtain ⟨t, ht⟩ : ∃ t : Fin cfg0.N, t.val = (i 0).val := ⟨⟨(i 0).val, by omega⟩, rfl⟩
  refine ⟨t, flush0_3 t, ?_⟩
  have hi := idx_facts3 t
  rw [mem_blk]
  intro a
  match a with
  | ⟨0, _⟩ => show win0_3.index t (0 : Fin 3) * 1 ≤ (i 0).val ∧ (i 0).val < win0_3.index t (0 : Fin 3) * 1 + 1; rw [hi.1]; omega
  | ⟨1, _⟩ => show win0_3.index t (1 : Fin 3) * 4096 ≤ (i 1).val ∧ (i 1).val < win0_3.index t (1 : Fin 3) * 4096 + 4096; rw [hi.2.1]; omega
  | ⟨2, _⟩ => show win0_3.index t (2 : Fin 3) * 64 ≤ (i 2).val ∧ (i 2).val < win0_3.index t (2 : Fin 3) * 64 + 64; rw [hi.2.2]; omega

/-- THE MERGED RESULT after the region: the specification with batch and head merged. -/
theorem merged_result (c : Dev nD) : (dats m 0 c).arrAt 3 cfg0.N = result3 (argQ m c) (argK m c) (argV m c) :=
  (dats m 0 c).arrAt_eq_of_cover 3 (result3 (argQ m c) (argK m c) (argV m c)) (fun t _ => flushed_eq m c t) cover

/-! ## The host's last line, and the run -/

/-- The merged specification viewed back as [8, 8, 4096, 64] is the specification. -/
theorem unmerge (q k v : A4.Idx → EReal) :
    shapeCast S8x8x4096x64 (result3 q k v) shapeCasts_S64x4096x64_S8x8x4096x64 = result q k v := by
  funext idx
  have h0 : (idx 0).val < 8 := (idx 0).isLt
  have h1 : (idx 1).val < 8 := (idx 1).isLt
  refine (shapeCast_apply (result3 q k v) shapeCasts_S64x4096x64_S8x8x4096x64 idx
    (ix3 (⟨(idx 0).val * 8 + (idx 1).val, by omega⟩ : Fin 64) (idx 2) (idx 3)) ?_).trans ?_
  · rw [Shape.rowMajor_val_three, Shape.rowMajor_val_four]
    rfl
  · unfold result3 result
    rfl

/-- THE RESULT ARRAY after the host's last line. -/
theorem tail_result (c : Dev nD) :
    Pipeline.afterTail₀ cfgs (dats m) 0 (V0 m) [hostOps1] c main_v4 = result (argQ m c) (argK m c) (argV m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
        = result3 (argQ m c) (argK m c) (argV m c) from
      (Pipeline.withArrays_arr spec0 launch0.win.arr_inj c _ _ 3).trans (merged_result m c)]
  exact unmerge _ _ _

/-- THE RUN: every weakly fair execution of the idealized kernel terminates with the result array at the
    specification's `result` of the three arguments, the arguments unchanged. -/
theorem run : θ_run defs (onTc (τ := τ) (main (F := Ideal))) ⟨m, fun _ => 0, ρ⟩ fun r => ∀ c : Dev nD,
      r.2.mem ((c.tc : Thread nD τ).loc main_v4) = result (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Whole

end
-- ==== Proof.RefLook.lean ====
/-
  The reference's look-around columns, read entry by entry. The reference pads one window of −1 in front of the 32
  windows (33 in all), takes windows 0–31 (each window's predecessor) and windows 1–32 (the windows themselves) and joins
  the two along the token axis: column j < 128 of window w is token j of window w − 1 (the padding value for w = 0),
  column j ≥ 128 is token j − 128 of window w.
-/
import proofs.«156112_j31894427140634_1_alg».proof.Proof.Gen.ReferenceIdeal.Read
import proofs.«156112_j31894427140634_1_alg».proof.Proof.AttnSpec
import Idealize.ShloMosaic.Lib.Pipeline.Value
import Idealize.ShloMosaic.Lib.ValueIdx
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.LocalAttn

/-- The padded-shifted-joined array of a [64, 32, 128, 64] array `y` with padding scalar `pv`. -/
def lookRef (y : S64x32x128x64.Idx → EReal) (pv : S_.Idx → EReal) : S64x32x256x64.Idx → EReal :=
  concatenate S64x32x256x64 2
    [⟨S64x32x128x64, extractStridedSlice S64x32x128x64 ![0, 0, 0, 0]
        (pad S64x33x128x64 ![0, 1, 0, 0] ![0, 0, 0, 0] ![0, 0, 0, 0] y pv pads_S64x32x128x64_S64x33x128x64_000_100_000_000 h_S_)
        slices_S64x33x128x64_S64x32x128x64_0_0_0_0⟩,
     ⟨S64x32x128x64, extractStridedSlice S64x32x128x64 ![0, 1, 0, 0]
        (pad S64x33x128x64 ![0, 1, 0, 0] ![0, 0, 0, 0] ![0, 0, 0, 0] y pv pads_S64x32x128x64_S64x33x128x64_000_100_000_000 h_S_)
        slices_S64x33x128x64_S64x32x128x64_0_1_0_0⟩]
    concatenates_S64x32x128x64_S64x32x128x64_S64x32x256x64_d2

/-- The padded array at window `p ≥ 1` is the operand at window `p − 1`. -/
theorem pad_inside (y : S64x32x128x64.Idx → EReal) (pv : S_.Idx → EReal) (B : Fin 64) (p : Fin 33) (w : Fin 32)
    (hp : p.val = 1 + w.val) (t : Fin 128) (e : Fin 64) :
    pad S64x33x128x64 ![0, 1, 0, 0] ![0, 0, 0, 0] ![0, 0, 0, 0] y pv pads_S64x32x128x64_S64x33x128x64_000_100_000_000 h_S_ (ix4 B p t e) = y (ix4 B w t e) :=
  pad_apply_of_inside ![0, 1, 0, 0] ![0, 0, 0, 0] ![0, 0, 0, 0] y pv pads_S64x32x128x64_S64x33x128x64_000_100_000_000 h_S_ (ix4 B p t e) (ix4 B w t e)
    (fun a => match a with
      | ⟨0, _⟩ => by show B.val = 0 + B.val * (0 + 1); omega
      | ⟨1, _⟩ => by show p.val = 1 + w.val * (0 + 1); omega
      | ⟨2, _⟩ => by show t.val = 0 + t.val * (0 + 1); omega
      | ⟨3, _⟩ => by show e.val = 0 + e.val * (0 + 1); omega)

/-- The padded array at window 0 is the padding value. -/
theorem pad_front (y : S64x32x128x64.Idx → EReal) (pv : S_.Idx → EReal) (B : Fin 64) (p : Fin 33)
    (hp : p.val = 0) (t : Fin 128) (e : Fin 64) :
    pad S64x33x128x64 ![0, 1, 0, 0] ![0, 0, 0, 0] ![0, 0, 0, 0] y pv pads_S64x32x128x64_S64x33x128x64_000_100_000_000 h_S_ (ix4 B p t e) = pv (Shape.Idx.first h_S_) :=
  pad_apply_of_not_inside ![0, 1, 0, 0] ![0, 0, 0, 0] ![0, 0, 0, 0] y pv pads_S64x32x128x64_S64x33x128x64_000_100_000_000 h_S_ (ix4 B p t e) (1 : Fin 4)
    (by
      intro h
      have h1 : (1 : Nat) ≤ p.val := h.1
      omega)

theorem lookRef_apply (y : S64x32x128x64.Idx → EReal) (pv : S_.Idx → EReal) (B : Fin 64) (w : Fin 32) (j : Fin 256) (e : Fin 64) :
    lookRef y pv (ix4 B w j e)
      = if hj : j.val < 128 then
          if hw : w.val = 0 then pv (Shape.Idx.first h_S_)
          else y (ix4 B (⟨w.val - 1, by have := w.isLt; omega⟩ : Fin 32) (⟨j.val, hj⟩ : Fin 128) e)
        else y (ix4 B w (⟨j.val - 128, by have := j.isLt; omega⟩ : Fin 128) e) := by
  unfold lookRef
  by_cases hj : j.val < 128
  · rw [dif_pos hj]
    refine (concatenate_pair_apply_left (t := S64x32x256x64) (s₁ := S64x32x128x64) (s₂ := S64x32x128x64) (2 : Fin 4) _ _
      concatenates_S64x32x128x64_S64x32x128x64_S64x32x256x64_d2 (ix4 B w j e) rfl
      (ix4 B w (⟨j.val, hj⟩ : Fin 128) e) (fun b => match b with | ⟨0, _⟩ => rfl | ⟨1, _⟩ => rfl | ⟨2, _⟩ => rfl | ⟨3, _⟩ => rfl)).trans ?_
    refine (extractStridedSlice_apply ![0, 0, 0, 0] _ slices_S64x33x128x64_S64x32x128x64_0_0_0_0 (ix4 B w (⟨j.val, hj⟩ : Fin 128) e)
      (ix4 B (⟨w.val, by have := w.isLt; omega⟩ : Fin 33) (⟨j.val, hj⟩ : Fin 128) e)
      (fun a => match a with
        | ⟨0, _⟩ => by show B.val = 0 + B.val; omega
        | ⟨1, _⟩ => by show w.val = 0 + w.val; omega
        | ⟨2, _⟩ => by show j.val = 0 + j.val; omega
        | ⟨3, _⟩ => by show e.val = 0 + e.val; omega)).trans ?_
    by_cases hw : w.val = 0
    · rw [dif_pos hw]
      exact pad_front y pv B _ hw _ e
    · rw [dif_neg hw]
      exact pad_inside y pv B _ (⟨w.val - 1, by have := w.isLt; omega⟩ : Fin 32) (by show w.val = 1 + (w.val - 1); omega) _ e
  · rw [dif_neg hj]
    refine (concatenate_pair_apply_right (t := S64x32x256x64) (s₁ := S64x32x128x64) (s₂ := S64x32x128x64) (2 : Fin 4) _ _
      concatenates_S64x32x128x64_S64x32x128x64_S64x32x256x64_d2 (ix4 B w j e) rfl rfl
      (ix4 B w (⟨j.val - 128, by have := j.isLt; omega⟩ : Fin 128) e)
      (fun b hb => match b, hb with
        | ⟨0, _⟩, _ => rfl
        | ⟨1, _⟩, _ => rfl
        | ⟨2, _⟩, hb => absurd rfl hb
        | ⟨3, _⟩, _ => rfl)
      (by show (j.val - 128) + 128 = j.val; omega)).trans ?_
    refine (extractStridedSlice_apply ![0, 1, 0, 0] _ slices_S64x33x128x64_S64x32x128x64_0_1_0_0 (ix4 B w (⟨j.val - 128, by have := j.isLt; omega⟩ : Fin 128) e)
      (ix4 B (⟨1 + w.val, by have := w.isLt; omega⟩ : Fin 33) (⟨j.val - 128, by have := j.isLt; omega⟩ : Fin 128) e)
      (fun a => match a with
        | ⟨0, _⟩ => by show B.val = 0 + B.val; omega
        | ⟨1, _⟩ => by show 1 + w.val = 1 + w.val; omega
        | ⟨2, _⟩ => by show j.val - 128 = 0 + (j.val - 128); omega
        | ⟨3, _⟩ => by show e.val = 0 + e.val; omega)).trans ?_
    exact pad_inside y pv B _ w rfl _ e

end Cert.ReferenceIdeal.RefValue

end
-- ==== Proof.RefValue.lean ====
/-
  The reference program is the slab specification, entry by entry.

  Its stages, as the generated read-back names them, are followed in program order: the three arguments viewed as
  [64, 32, 128, 64] (slab, window, token, feature); the scaled queries; the look-around keys and values; the scores as a
  sum over the features; the row maximum as a fold of max from −∞ over the 256 columns, taken once more against −∞; the
  exponentials; their row sums from 0; the quotients; the weighted sum over the columns; and the view back as
  [8, 8, 4096, 64]. At entry (b, h, n, e) the result is `attend` of slab b·8 + h at window n / 128, token n % 128.
-/
import proofs.«156112_j31894427140634_1_alg».proof.Proof.Gen.ReferenceIdeal.Read
import proofs.«156112_j31894427140634_1_alg».proof.Proof.AttnSpec
import Idealize.ShloMosaic.Lib.Pipeline.Value
import Idealize.ShloMosaic.Lib.ValueIdx
import Idealize.ShloMosaic.Lib.KernelVsHost
import Idealize.ShloMosaic.PureOps.Ideal.Laws
import proofs.«156112_j31894427140634_1_alg».proof.Proof.RefLook

noncomputable section

namespace Cert.ReferenceIdeal.RefValue

open Cert.ReferenceIdeal Cert.ReferenceIdeal.Gen Cert.ReferenceIdeal.Read Idealize.ShloMosaic Idealize.ShloMosaic.ValueIdx Cert.LocalAttn

/-! ## The arguments by slab, window, token -/

/-- Entry (B, w, i, e) of an argument viewed as [64, 32, 128, 64] is token w·128 + i of slab B. -/
theorem view_apply (x : S8x8x4096x64.Idx → EReal) (B : Fin 64) (w : Fin 32) (i : Fin 128) (e : Fin 64) :
    val_main_v0 (F := Ideal) x (ix4 B w i e) = slab x B (tok w i) e := by
  rw [val_main_v0_apply]
  unfold slab
  refine congrArg x (funext fun a => Fin.ext ?_)
  have hB := B.isLt; have hw := w.isLt; have hi := i.isLt; have he := e.isLt
  match a with
  | ⟨0, _⟩ => show (((B.val * 32 + w.val) * 128 + i.val) * 64 + e.val) / 2097152 = B.val / 8; omega
  | ⟨1, _⟩ => show (((B.val * 32 + w.val) * 128 + i.val) * 64 + e.val) / 262144 % 8 = B.val % 8; omega
  | ⟨2, _⟩ => show (((B.val * 32 + w.val) * 128 + i.val) * 64 + e.val) / 64 % 4096 = w.val * 128 + i.val; omega
  | ⟨3, _⟩ => show (((B.val * 32 + w.val) * 128 + i.val) * 64 + e.val) % 64 = e.val; omega

/-- The scaled queries. -/
theorem query_apply (q : S8x8x4096x64.Idx → EReal) (B : Fin 64) (w : Fin 32) (i : Fin 128) (e : Fin 64) :
    val_main_v2 (F := Ideal) q (ix4 B w i e) = slab q B (tok w i) e * scale := by
  rw [val_main_v2_apply, view_apply, val_main_v1_apply, val_main_cst_apply, Ideal.mulf_def, Ideal.ofBits_def]
  rfl

/-- The look-around keys. -/
theorem keys_apply (k : S8x8x4096x64.Idx → EReal) (B : Fin 64) (w : Fin 32) (j : Fin 256) (e : Fin 64) :
    val_main_v7 (F := Ideal) k (ix4 B w j e) = look (slab k B) w j e := by
  have h : val_main_v7 (F := Ideal) k = lookRef (val_main_v0 (F := Ideal) k) (val_main_call0_v0 (F := Ideal)) := rfl
  rw [h, lookRef_apply]
  unfold look
  by_cases hj : j.val < 128
  · rw [dif_pos hj, dif_pos hj]
    by_cases hw : w.val = 0
    · rw [dif_pos hw, dif_pos hw, val_main_call0_v0_apply, val_main_cst_0_apply, Ideal.ofBits_def]; rfl
    · rw [dif_neg hw, dif_neg hw]; exact view_apply k B _ _ e
  · rw [dif_neg hj, dif_neg hj]; exact view_apply k B _ _ e

/-- The look-around values. -/
theorem values_apply (v : S8x8x4096x64.Idx → EReal) (B : Fin 64) (w : Fin 32) (j : Fin 256) (e : Fin 64) :
    val_main_v12 (F := Ideal) v (ix4 B w j e) = look (slab v B) w j e := by
  have h : val_main_v12 (F := Ideal) v = lookRef (val_main_v0 (F := Ideal) v) (val_main_call1_v0 (F := Ideal)) := rfl
  rw [h, lookRef_apply]
  unfold look
  by_cases hj : j.val < 128
  · rw [dif_pos hj, dif_pos hj]
    by_cases hw : w.val = 0
    · rw [dif_pos hw, dif_pos hw, val_main_call1_v0_apply, val_main_cst_1_apply, Ideal.ofBits_def]; rfl
    · rw [dif_neg hw, dif_neg hw]; exact view_apply v B _ _ e
  · rw [dif_neg hj, dif_neg hj]; exact view_apply v B _ _ e

/-! ## The softmax stages -/

theorem score_apply (q k : S8x8x4096x64.Idx → EReal) (B : Fin 64) (w : Fin 32) (i : Fin 128) (j : Fin 256) :
    val_main_v13 (F := Ideal) q k (ix4 B w i j) = score (slab q B) (slab k B) w i j := by
  rw [val_main_v13_apply]
  unfold score
  refine Finset.sum_congr rfl fun e _ => ?_
  have el : lidx_main_v13 (ix4 B w i j) e = ix4 B w i e :=
    funext fun a => Fin.ext (by match a with | ⟨0, _⟩ => rfl | ⟨1, _⟩ => rfl | ⟨2, _⟩ => rfl | ⟨3, _⟩ => rfl)
  have er : ridx_main_v13 (ix4 B w i j) e = ix4 B w j e :=
    funext fun a => Fin.ext (by match a with | ⟨0, _⟩ => rfl | ⟨1, _⟩ => rfl | ⟨2, _⟩ => rfl | ⟨3, _⟩ => rfl)
  rw [el, er, query_apply, keys_apply]

/-- The reduction along the columns, as the library's single-axis reading wants it. -/
theorem reduces_cols : S64x32x128x256.Reduces [3] S64x32x128 := by decide

theorem lift_cols (B : Fin 64) (w : Fin 32) (i : Fin 128) (k : Fin 256) :
    reduces_cols.lift (ix3 B w i) k = ix4 B w i k :=
  funext fun a => Fin.ext (by match a with | ⟨0, _⟩ => rfl | ⟨1, _⟩ => rfl | ⟨2, _⟩ => rfl | ⟨3, _⟩ => rfl)

theorem max_apply (q k : S8x8x4096x64.Idx → EReal) (B : Fin 64) (w : Fin 32) (i : Fin 128) :
    val_main_v16 (F := Ideal) q k (ix3 B w i) = rowMax (slab q B) (slab k B) w i := by
  have h14 : val_main_v14 (F := Ideal) q k (ix3 B w i)
      = (Finset.univ : Finset (Fin 256)).fold max ninf (fun j => score (slab q B) (slab k B) w i j) := by
    unfold val_main_v14
    have hfold := Host.reduce_eq_fold_single (FloatOps.maximumf (F := Ideal) (φ := .f32)) (val_main_v13 (F := Ideal) q k)
      (val_main_cst_2 (F := Ideal)) reducesTo_S64x32x128x256_S64x32x128_d3 reduces_cols h_S_ (ix3 B w i)
    have hf : (val_main_v13 (F := Ideal) q k ∘ reduces_cols.lift (ix3 B w i)) = fun j : Fin 256 => score (slab q B) (slab k B) w i j :=
      funext fun j => (congrArg (val_main_v13 (F := Ideal) q k) (lift_cols B w i j)).trans (score_apply q k B w i j)
    rw [hf, val_main_cst_2_apply, Ideal.ofBits_def] at hfold
    exact hfold
  unfold rowMax
  rw [val_main_v16_apply, val_main_v15_apply, val_main_cst_3_apply, Ideal.maximumf_def, Ideal.ofBits_def, h14]
  rfl

theorem exp_apply (q k : S8x8x4096x64.Idx → EReal) (B : Fin 64) (w : Fin 32) (i : Fin 128) (j : Fin 256) :
    val_main_v20 (F := Ideal) q k (ix4 B w i j) = expo (slab q B) (slab k B) w i j := by
  have e1 : idx_main_v17 (idx_main_v18 (ix4 B w i j)) = ix3 B w i :=
    funext fun a => Fin.ext (by match a with | ⟨0, _⟩ => rfl | ⟨1, _⟩ => rfl | ⟨2, _⟩ => rfl)
  unfold expo
  rw [val_main_v20_apply, val_main_v19_apply, val_main_v18_apply, val_main_v17_apply, e1, max_apply, score_apply,
    Ideal.hostUnary_exp_def, Ideal.subf_def]

theorem sum_apply (q k : S8x8x4096x64.Idx → EReal) (B : Fin 64) (w : Fin 32) (i : Fin 128) :
    val_main_v21 (F := Ideal) q k (ix3 B w i) = denom (slab q B) (slab k B) w i := by
  rw [val_main_v21_apply]
  unfold denom
  rw [val_main_cst_4_apply, Ideal.ofBits_def, Ideal.ofBits_zero_f32, zero_add]
  refine Finset.sum_congr rfl fun j _ => ?_
  have e1 : idx_main_v21 (ix3 B w i) j = ix4 B w i j :=
    funext fun a => Fin.ext (by match a with | ⟨0, _⟩ => rfl | ⟨1, _⟩ => rfl | ⟨2, _⟩ => rfl | ⟨3, _⟩ => rfl)
  rw [e1, exp_apply]

theorem weight_apply (q k : S8x8x4096x64.Idx → EReal) (B : Fin 64) (w : Fin 32) (i : Fin 128) (j : Fin 256) :
    val_main_v24 (F := Ideal) q k (ix4 B w i j) = weight (slab q B) (slab k B) w i j := by
  have e1 : idx_main_v22 (idx_main_v23 (ix4 B w i j)) = ix3 B w i :=
    funext fun a => Fin.ext (by match a with | ⟨0, _⟩ => rfl | ⟨1, _⟩ => rfl | ⟨2, _⟩ => rfl)
  unfold weight
  rw [val_main_v24_apply, val_main_v23_apply, val_main_v22_apply, e1, sum_apply, exp_apply, Ideal.hostDivf_def]

theorem out_apply (q k v : S8x8x4096x64.Idx → EReal) (B : Fin 64) (w : Fin 32) (i : Fin 128) (e : Fin 64) :
    val_main_v25 (F := Ideal) q k v (ix4 B w i e) = attend (slab q B) (slab k B) (slab v B) w i e := by
  rw [val_main_v25_apply]
  unfold attend
  refine Finset.sum_congr rfl fun j _ => ?_
  have el : lidx_main_v25 (ix4 B w i e) j = ix4 B w i j :=
    funext fun a => Fin.ext (by match a with | ⟨0, _⟩ => rfl | ⟨1, _⟩ => rfl | ⟨2, _⟩ => rfl | ⟨3, _⟩ => rfl)
  have er : ridx_main_v25 (ix4 B w i e) j = ix4 B w j e :=
    funext fun a => Fin.ext (by match a with | ⟨0, _⟩ => rfl | ⟨1, _⟩ => rfl | ⟨2, _⟩ => rfl | ⟨3, _⟩ => rfl)
  rw [el, er, weight_apply, values_apply]

/-! ## The result -/

/-- THE REFERENCE'S RESULT is the specification's, entry by entry. -/
theorem result_eq (q k v : S8x8x4096x64.Idx → EReal) : val_main_v26 (F := Ideal) q k v = result q k v := by
  funext idx
  rw [val_main_v26_apply]
  have h0 : (idx 0).val < 8 := (idx 0).isLt
  have h1 : (idx 1).val < 8 := (idx 1).isLt
  have h2 : (idx 2).val < 4096 := (idx 2).isLt
  have h3 : (idx 3).val < 64 := (idx 3).isLt
  have e1 : idx_main_v26 idx
      = ix4 (⟨(idx 0).val * 8 + (idx 1).val, by omega⟩ : Fin 64) (⟨(idx 2).val / 128, by omega⟩ : Fin 32)
          (⟨(idx 2).val % 128, by omega⟩ : Fin 128) (⟨(idx 3).val, h3⟩ : Fin 64) :=
    funext fun a => Fin.ext (by
      match a with
      | ⟨0, _⟩ => show ((((idx 0).val * 8 + (idx 1).val) * 4096 + (idx 2).val) * 64 + (idx 3).val) / 262144 = (idx 0).val * 8 + (idx 1).val; omega
      | ⟨1, _⟩ => show ((((idx 0).val * 8 + (idx 1).val) * 4096 + (idx 2).val) * 64 + (idx 3).val) / 8192 % 32 = (idx 2).val / 128; omega
      | ⟨2, _⟩ => show ((((idx 0).val * 8 + (idx 1).val) * 4096 + (idx 2).val) * 64 + (idx 3).val) / 64 % 128 = (idx 2).val % 128; omega
      | ⟨3, _⟩ => show ((((idx 0).val * 8 + (idx 1).val) * 4096 + (idx 2).val) * 64 + (idx 3).val) % 64 = (idx 3).val; omega)
  rw [e1, out_apply]
  unfold result
  rfl

end Cert.ReferenceIdeal.RefValue

end
-- ==== Proof.lean ====
/-
  Windowed local attention with one window of look-back: the Pallas kernel against its jnp reference, over the
  extended reals.

  Both programs compute, for each of the 64 (batch, head) slabs of 4096 tokens × 64 features cut into 32 windows of 128
  tokens, and for each query token i of window w,
      out[i, ·] = ∑ⱼ softmax_j (∑ₑ (q[i, e] · ⅛) · K[j, e]) · V[j, ·],
  where j ranges over 256 columns: the 128 tokens of window w − 1 (a row of −1 in every feature when w = 0) followed by the
  128 tokens of window w, and the softmax subtracts the row maximum (taken from −∞), exponentiates and divides by the
  row's sum. The kernel does this one slab per grid point on [32, 128, ·] blocks, with the two products on the matrix unit
  into zero accumulators and its operands narrowed to bfloat16; the reference does it on [64, 32, 128, ·] arrays with a
  pad, two slices and a concatenation for the look-around and `dot_general` for the products. On the extended reals a
  change of float format is the identity, a product into a zero accumulator is the plain sum over the contracted
  coordinate, the bfloat16 and binary32 words of −1 denote the same number, and ⅛ = 64^(−½) is the same binary32 word in
  both programs: so the two results are one function of the arguments, entry by entry (the specification `result`),
  with no appeal to finiteness — every step is a re-indexing, never a law that could fail at ±∞.

  The three frames are the generated ones (the reference's is its generated run with the result dropped); the
  idealization rewrote nothing, so the kernel's idealization claim is trivial.
-/
import proofs.«156112_j31894427140634_1_alg».proof.Defs
import proofs.«156112_j31894427140634_1_alg».proof.Proof.Gen.Kernel
import proofs.«156112_j31894427140634_1_alg».proof.Proof.Gen.Kernel.Skeleton
import proofs.«156112_j31894427140634_1_alg».proof.Proof.Gen.Kernel.Launch
import proofs.«156112_j31894427140634_1_alg».proof.Proof.Gen.Kernel.Points
import proofs.«156112_j31894427140634_1_alg».proof.Proof.Gen.Kernel.Frame
import proofs.«156112_j31894427140634_1_alg».proof.Proof.Gen.KernelIdeal
import proofs.«156112_j31894427140634_1_alg».proof.Proof.Gen.KernelIdeal.Skeleton
import proofs.«156112_j31894427140634_1_alg».proof.Proof.Gen.KernelIdeal.Launch
import proofs.«156112_j31894427140634_1_alg».proof.Proof.Gen.KernelIdeal.Points
import proofs.«156112_j31894427140634_1_alg».proof.Proof.Gen.KernelIdeal.Frame
import proofs.«156112_j31894427140634_1_alg».proof.Proof.Gen.ReferenceIdeal
import proofs.«156112_j31894427140634_1_alg».proof.Proof.Gen.ReferenceIdeal.Run
import proofs.«156112_j31894427140634_1_alg».proof.Proof.Gen.ReferenceIdeal.Read
import proofs.«156112_j31894427140634_1_alg».proof.Proof.Gen.Pre_finite_inputs
import proofs.«156112_j31894427140634_1_alg».proof.Proof.AttnSpec
import proofs.«156112_j31894427140634_1_alg».proof.Proof.KernelArray
import proofs.«156112_j31894427140634_1_alg».proof.Proof.RefValue
import Idealize.ShloMosaic.Adequacy
import Idealize.ShloMosaic.Init

noncomputable section

namespace Cert.Proof

open Idealize.ShloMosaic Idealize.SL.Sem Cert.LocalAttn

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result array at the specification's `result` of the arguments: the kernel
    by its run read as one function, the reference by its stages read entry by entry; the arguments agree. -/
theorem algebraic : Cert.algebraic_KernelIdeal_ReferenceIdeal := by
  intro m ρ m' ρ' _ hagree
  refine ⟨fun c => result (Cert.KernelIdeal.Whole.argQ m c) (Cert.KernelIdeal.Whole.argK m c) (Cert.KernelIdeal.Whole.argV m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
